-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x32x2 : Shape := ⟨4, ![4, 16, 32, 2]⟩
abbrev S181 : Shape := ⟨1, ![181]⟩
abbrev S360 : Shape := ⟨1, ![360]⟩
abbrev S_ : Shape := ⟨0, ![]⟩

class Facts : Prop where
  bcast_S_S4x16x32x2 : S_.BroadcastsInDim S4x16x32x2 (![] : Fin 0 → Fin S4x16x32x2.rank)
  reducesTo_S4x16x32x2_S_d0_1_2_3 : S4x16x32x2.ReducesTo [0, 1, 2, 3] S_
  h_S_ : 0 < S_.numel
  bcast_S_S181 : S_.BroadcastsInDim S181 (![] : Fin 0 → Fin S181.rank)
  reducesTo_S181_S_d0 : S181.ReducesTo [0] S_
  bcast_S_S360 : S_.BroadcastsInDim S360 (![] : Fin 0 → Fin S360.rank)
  reducesTo_S360_S_d0 : S360.ReducesTo [0] S_

variable [Facts]

def fn {F : FTy → Type} [FloatOps F] (main_arg0 : FVec F S4x16x32x2 .f32) (main_arg1 : FVec F S181 .f32) (main_arg2 : FVec F S360 .f32) : IVec S_ 1 :=
  let main_v0 : FVec F S4x16x32x2 .f32 := Host.absf main_arg0
  let main_cst : FVec F S_ .f32 := constant S_ .f32 0x7F800000#32
  let main_v1 : FVec F S4x16x32x2 .f32 := broadcastInDim S4x16x32x2 ![] bcast_S_S4x16x32x2 main_cst
  let main_v2 : IVec S4x16x32x2 1 := cmpf .olt main_v0 main_v1
  let main_c : IVec S_ 1 := constantI S_ 1 1#1
  let main_v3 : IVec S_ 1 := (fun x v => Host.reduce IntOp.andi x v reducesTo_S4x16x32x2_S_d0_1_2_3 h_S_) main_v2 main_c
  let main_v4 : FVec F S181 .f32 := Host.absf main_arg1
  let main_cst_0 : FVec F S_ .f32 := constant S_ .f32 0x7F800000#32
  let main_v5 : FVec F S181 .f32 := broadcastInDim S181 ![] bcast_S_S181 main_cst_0
  let main_v6 : IVec S181 1 := cmpf .olt main_v4 main_v5
  let main_c_1 : IVec S_ 1 := constantI S_ 1 1#1
  let main_v7 : IVec S_ 1 := (fun x v => Host.reduce IntOp.andi x v reducesTo_S181_S_d0 h_S_) main_v6 main_c_1
  let main_v8 : IVec S_ 1 := andi main_v3 main_v7
  let main_v9 : FVec F S360 .f32 := Host.absf main_arg2
  let main_cst_2 : FVec F S_ .f32 := constant S_ .f32 0x7F800000#32
  let main_v10 : FVec F S360 .f32 := broadcastInDim S360 ![] bcast_S_S360 main_cst_2
  let main_v11 : IVec S360 1 := cmpf .olt main_v9 main_v10
  let main_c_3 : IVec S_ 1 := constantI S_ 1 1#1
  let main_v12 : IVec S_ 1 := (fun x v => Host.reduce IntOp.andi x v reducesTo_S360_S_d0 h_S_) main_v11 main_c_3
  let main_v13 : IVec S_ 1 := andi main_v8 main_v12
  main_v13
-- ==== Kernel.lean ====
abbrev S4x16x32x2 : Shape := ⟨4, ![4, 16, 32, 2]⟩
abbrev S181 : Shape := ⟨1, ![181]⟩
abbrev S360 : Shape := ⟨1, ![360]⟩
abbrev S181x1 : Shape := ⟨2, ![181, 1]⟩
abbrev S1x360 : Shape := ⟨2, ![1, 360]⟩
abbrev S4x16x181x360 : Shape := ⟨4, ![4, 16, 181, 360]⟩
abbrev S1x16x32x2 : Shape := ⟨4, ![1, 16, 32, 2]⟩
abbrev S1x16x181x360 : Shape := ⟨4, ![1, 16, 181, 360]⟩
abbrev S16x32x2 : Shape := ⟨3, ![16, 32, 2]⟩
abbrev S16x32x1 : Shape := ⟨3, ![16, 32, 1]⟩
abbrev S16x32 : Shape := ⟨2, ![16, 32]⟩
abbrev S16x1x32 : Shape := ⟨3, ![16, 1, 32]⟩
abbrev S1x181x1 : Shape := ⟨3, ![1, 181, 1]⟩
abbrev S1x1x360 : Shape := ⟨3, ![1, 1, 360]⟩
abbrev S16x181x32 : Shape := ⟨3, ![16, 181, 32]⟩
abbrev S16x32x360 : Shape := ⟨3, ![16, 32, 360]⟩
abbrev S16x181x360 : Shape := ⟨3, ![16, 181, 360]⟩
abbrev S16 : Shape := ⟨1, ![16]⟩
abbrev S16x1x1 : Shape := ⟨3, ![16, 1, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x16x32x2, .f32⟩
  | .hbm, ⟨1, _⟩ => ⟨S181, .f32⟩
  | .hbm, ⟨2, _⟩ => ⟨S360, .f32⟩
  | .hbm, ⟨3, _⟩ => ⟨S181x1, .f32⟩
  | .hbm, ⟨4, _⟩ => ⟨S1x360, .f32⟩
  | .hbm, ⟨5, _⟩ => ⟨S4x16x181x360, .f32⟩
  | .local _ .vmem, ⟨0, _⟩ => ⟨S1x16x32x2, .f32⟩
  | .local _ .vmem, ⟨1, _⟩ => ⟨S1x16x32x2, .f32⟩
  | .local _ .vmem, ⟨2, _⟩ => ⟨S181x1, .f32⟩
  | .local _ .vmem, ⟨3, _⟩ => ⟨S1x360, .f32⟩
  | .local _ .vmem, ⟨4, _⟩ => ⟨S1x16x181x360, .f32⟩
  | .local _ .vmem, ⟨5, _⟩ => ⟨S1x16x181x360, .f32⟩
  | _, _ => ⟨S4x16x32x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x32x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S181x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x181x360 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S181_S181x1 : S181.ShapeCasts S181x1
  shapeCasts_S360_S1x360 : S360.ShapeCasts S1x360
  inb_S1x16x32x2_S1x16x32x2_0_0_0_0 : ∀ a, (![0, 0, 0, 0] : Fin 4 → Nat) a + S1x16x32x2.size a ≤ S1x16x32x2.size a
  h_S1x16x32x2 : 0 < S1x16x32x2.numel
  shapeCasts_S1x16x32x2_S16x32x2 : S1x16x32x2.ShapeCasts S16x32x2
  slices_S16x32x2_o0_0_0_S16x32x1 : S16x32x2.Slices ![0, 0, 0] S16x32x1
  shapeCasts_S16x32x1_S16x32 : S16x32x1.ShapeCasts S16x32
  shapeCasts_S16x32_S16x1x32 : S16x32.ShapeCasts S16x1x32
  slices_S16x32x2_o0_0_1_S16x32x1 : S16x32x2.Slices ![0, 0, 1] S16x32x1
  shapeCasts_S16x32_S16x32x1 : S16x32.ShapeCasts S16x32x1
  inb_S181x1_S181x1_0_0 : ∀ a, (![0, 0] : Fin 2 → Nat) a + S181x1.size a ≤ S181x1.size a
  h_S181x1 : 0 < S181x1.numel
  shapeCasts_S181x1_S181x1 : S181x1.ShapeCasts S181x1
  shapeCasts_S181x1_S1x181x1 : S181x1.ShapeCasts S1x181x1
  inb_S1x360_S1x360_0_0 : ∀ a, (![0, 0] : Fin 2 → Nat) a + S1x360.size a ≤ S1x360.size a
  h_S1x360 : 0 < S1x360.numel
  shapeCasts_S1x360_S1x360 : S1x360.ShapeCasts S1x360
  shapeCasts_S1x360_S1x1x360 : S1x360.ShapeCasts S1x1x360
  broadcasts_S1x181x1_S16x181x32 : S1x181x1.Broadcasts S16x181x32
  broadcasts_S16x1x32_S16x181x32 : S16x1x32.Broadcasts S16x181x32
  broadcasts_S1x1x360_S16x32x360 : S1x1x360.Broadcasts S16x32x360
  broadcasts_S16x32x1_S16x32x360 : S16x32x1.Broadcasts S16x32x360
  reduces_S16x181x360_S16 : S16x181x360.Reduces [1, 2] S16
  shapeCasts_S16_S16x1x1 : S16.ShapeCasts S16x1x1
  broadcasts_S16x1x1_S16x181x360 : S16x1x1.Broadcasts S16x181x360
  inb_S1x16x181x360_S1x16x181x360_0_0_0_0 : ∀ a, (![0, 0, 0, 0] : Fin 4 → Nat) a + S1x16x181x360.size a ≤ S1x16x181x360.size a
  h_S1x16x181x360 : 0 < S1x16x181x360.numel
  shapeCasts_S1x16x181x360_S16x181x360 : S1x16x181x360.ShapeCasts S16x181x360
  shapeCasts_S16x181x360_S1x16x181x360 : S16x181x360.ShapeCasts S1x16x181x360
  dot_S16x181x32_S16x32x360_S16x181x360_2_1_1_2_0_0_wf : DotDims.WF S16x181x32 S16x32x360 S16x181x360 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32x2.size a ≤ S4x16x32x2.size a
  hwx0_0 : ∀ i : grid0.Coords, EltTy.bits .f32 = 32 ∨ (Rect.block (s := S4x16x32x2) S1x16x32x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S181x1.size a ≤ S181x1.size a
  hwx0_1 : ∀ i : grid0.Coords, EltTy.bits .f32 = 32 ∨ (Rect.block (s := S181x1) S181x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x360.size a ≤ S1x360.size a
  hwx0_2 : ∀ i : grid0.Coords, EltTy.bits .f32 = 32 ∨ (Rect.block (s := S1x360) S1x360.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x181x360.size a ≤ S4x16x181x360.size a
  hwx0_3 : ∀ i : grid0.Coords, EltTy.bits .f32 = 32 ∨ (Rect.block (s := S4x16x181x360) S1x16x181x360.size (cc0_transform_3 i) (hinb0_3 i)).WholeWords (EltTy.packing .f32)

variable [Facts₀]

def dot_S16x181x32_S16x32x360_S16x181x360_2_1_1_2_0_0 : DotDims S16x181x32 S16x32x360 S16x181x360 where
  lhsContracting := [2]
  rhsContracting := [1]
  lhsNonContracting := [1]
  rhsNonContracting := [2]
  lhsBatch := [0]
  rhsBatch := [0]
  wf := dot_S16x181x32_S16x32x360_S16x181x360_2_1_1_2_0_0_wf

abbrev win0_0 : Pipeline.Window sig grid0 :=
  Pipeline.Window.ofSpec (Memref.whole main_arg0) S1x16x32x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S181x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x360.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x16x181x360.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x32x2 : Shape := ⟨4, ![4, 16, 32, 2]⟩
abbrev S181 : Shape := ⟨1, ![181]⟩
abbrev S360 : Shape := ⟨1, ![360]⟩
abbrev S4x16x32x1 : Shape := ⟨4, ![4, 16, 32, 1]⟩
abbrev S4x16x32 : Shape := ⟨3, ![4, 16, 32]⟩
abbrev S4x16x32x1x1 : Shape := ⟨5, ![4, 16, 32, 1, 1]⟩
abbrev S1x1x1x181x1 : Shape := ⟨5, ![1, 1, 1, 181, 1]⟩
abbrev S4x16x32x181x1 : Shape := ⟨5, ![4, 16, 32, 181, 1]⟩
abbrev S1x1x1x1x360 : Shape := ⟨5, ![1, 1, 1, 1, 360]⟩
abbrev S4x16x32x1x360 : Shape := ⟨5, ![4, 16, 32, 1, 360]⟩
abbrev S4x16x32x181x360 : Shape := ⟨5, ![4, 16, 32, 181, 360]⟩
abbrev S_ : Shape := ⟨0, ![]⟩
abbrev S4x16x181x360 : Shape := ⟨4, ![4, 16, 181, 360]⟩
abbrev S4x16 : Shape := ⟨2, ![4, 16]⟩
abbrev S4x16x1x1 : Shape := ⟨4, ![4, 16, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x16x32x2, .f32⟩
  | .hbm, ⟨1, _⟩ => ⟨S181, .f32⟩
  | .hbm, ⟨2, _⟩ => ⟨S360, .f32⟩
  | .hbm, ⟨3, _⟩ => ⟨S4x16x32x1, .f32⟩
  | .hbm, ⟨4, _⟩ => ⟨S4x16x32, .f32⟩
  | .hbm, ⟨5, _⟩ => ⟨S4x16x32x1x1, .f32⟩
  | .hbm, ⟨6, _⟩ => ⟨S4x16x32x1, .f32⟩
  | .hbm, ⟨7, _⟩ => ⟨S4x16x32, .f32⟩
  | .hbm, ⟨8, _⟩ => ⟨S4x16x32x1x1, .f32⟩
  | .hbm, ⟨9, _⟩ => ⟨S1x1x1x181x1, .f32⟩
  | .hbm, ⟨10, _⟩ => ⟨S4x16x32x181x1, .f32⟩
  | .hbm, ⟨11, _⟩ => ⟨S4x16x32x181x1, .f32⟩
  | .hbm, ⟨12, _⟩ => ⟨S4x16x32x181x1, .f32⟩
  | .hbm, ⟨13, _⟩ => ⟨S4x16x32x181x1, .f32⟩
  | .hbm, ⟨14, _⟩ => ⟨S1x1x1x1x360, .f32⟩
  | .hbm, ⟨15, _⟩ => ⟨S4x16x32x1x360, .f32⟩
  | .hbm, ⟨16, _⟩ => ⟨S4x16x32x1x360, .f32⟩
  | .hbm, ⟨17, _⟩ => ⟨S4x16x32x1x360, .f32⟩
  | .hbm, ⟨18, _⟩ => ⟨S4x16x32x1x360, .f32⟩
  | .hbm, ⟨19, _⟩ => ⟨S4x16x32x181x360, .f32⟩
  | .hbm, ⟨20, _⟩ => ⟨S4x16x32x181x360, .f32⟩
  | .hbm, ⟨21, _⟩ => ⟨S4x16x32x181x360, .f32⟩
  | .hbm, ⟨22, _⟩ => ⟨S_, .f32⟩
  | .hbm, ⟨23, _⟩ => ⟨S4x16x32x181x360, .f32⟩
  | .hbm, ⟨24, _⟩ => ⟨S4x16x32x181x360, .f32⟩
  | .hbm, ⟨25, _⟩ => ⟨S_, .f32⟩
  | .hbm, ⟨26, _⟩ => ⟨S4x16x32x181x360, .f32⟩
  | .hbm, ⟨27, _⟩ => ⟨S4x16x32x181x360, .f32⟩
  | .hbm, ⟨28, _⟩ => ⟨S4x16x32x181x360, .f32⟩
  | .hbm, ⟨29, _⟩ => ⟨S_, .f32⟩
  | .hbm, ⟨30, _⟩ => ⟨S4x16x181x360, .f32⟩
  | .hbm, ⟨31, _⟩ => ⟨S_, .f32⟩
  | .hbm, ⟨32, _⟩ => ⟨S4x16, .f32⟩
  | .hbm, ⟨33, _⟩ => ⟨S4x16x1x1, .f32⟩
  | .hbm, ⟨34, _⟩ => ⟨S_, .f32⟩
  | .hbm, ⟨35, _⟩ => ⟨S4x16x1x1, .f32⟩
  | .hbm, ⟨36, _⟩ => ⟨S4x16x1x1, .f32⟩
  | .hbm, ⟨37, _⟩ => ⟨S4x16x181x360, .f32⟩
  | .hbm, ⟨38, _⟩ => ⟨S4x16x181x360, .f32⟩
  | _, _ => ⟨S4x16x32x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  slices_S4x16x32x2_S4x16x32x1_0_0_0_0 : S4x16x32x2.Slices ![0, 0, 0, 0] S4x16x32x1
  shapeCasts_S4x16x32x1_S4x16x32 : S4x16x32x1.ShapeCasts S4x16x32
  bcast_S4x16x32_S4x16x32x1x1_0_1_2 : S4x16x32.BroadcastsInDim S4x16x32x1x1 (![0, 1, 2] : Fin 3 → Fin S4x16x32x1x1.rank)
  slices_S4x16x32x2_S4x16x32x1_0_0_0_1 : S4x16x32x2.Slices ![0, 0, 0, 1] S4x16x32x1
  bcast_S181_S1x1x1x181x1_3 : S181.BroadcastsInDim S1x1x1x181x1 (![3] : Fin 1 → Fin S1x1x1x181x1.rank)
  bcast_S1x1x1x181x1_S4x16x32x181x1_0_1_2_3_4 : S1x1x1x181x1.BroadcastsInDim S4x16x32x181x1 (![0, 1, 2, 3, 4] : Fin 5 → Fin S4x16x32x181x1.rank)
  bcast_S4x16x32x1x1_S4x16x32x181x1_0_1_2_3_4 : S4x16x32x1x1.BroadcastsInDim S4x16x32x181x1 (![0, 1, 2, 3, 4] : Fin 5 → Fin S4x16x32x181x1.rank)
  bcast_S360_S1x1x1x1x360_4 : S360.BroadcastsInDim S1x1x1x1x360 (![4] : Fin 1 → Fin S1x1x1x1x360.rank)
  bcast_S1x1x1x1x360_S4x16x32x1x360_0_1_2_3_4 : S1x1x1x1x360.BroadcastsInDim S4x16x32x1x360 (![0, 1, 2, 3, 4] : Fin 5 → Fin S4x16x32x1x360.rank)
  bcast_S4x16x32x1x1_S4x16x32x1x360_0_1_2_3_4 : S4x16x32x1x1.BroadcastsInDim S4x16x32x1x360 (![0, 1, 2, 3, 4] : Fin 5 → Fin S4x16x32x1x360.rank)
  bcast_S4x16x32x181x1_S4x16x32x181x360_0_1_2_3_4 : S4x16x32x181x1.BroadcastsInDim S4x16x32x181x360 (![0, 1, 2, 3, 4] : Fin 5 → Fin S4x16x32x181x360.rank)
  bcast_S4x16x32x1x360_S4x16x32x181x360_0_1_2_3_4 : S4x16x32x1x360.BroadcastsInDim S4x16x32x181x360 (![0, 1, 2, 3, 4] : Fin 5 → Fin S4x16x32x181x360.rank)
  bcast_S_S4x16x32x181x360 : S_.BroadcastsInDim S4x16x32x181x360 (![] : Fin 0 → Fin S4x16x32x181x360.rank)
  reducesTo_S4x16x32x181x360_S4x16x181x360_d2 : S4x16x32x181x360.ReducesTo [2] S4x16x181x360
  h_S_ : 0 < S_.numel
  reducesTo_S4x16x181x360_S4x16_d2_3 : S4x16x181x360.ReducesTo [2, 3] S4x16
  bcast_S4x16_S4x16x1x1_0_1 : S4x16.BroadcastsInDim S4x16x1x1 (![0, 1] : Fin 2 → Fin S4x16x1x1.rank)
  bcast_S_S4x16x1x1 : S_.BroadcastsInDim S4x16x1x1 (![] : Fin 0 → Fin S4x16x1x1.rank)
  bcast_S4x16x1x1_S4x16x181x360_0_1_2_3 : S4x16x1x1.BroadcastsInDim S4x16x181x360 (![0, 1, 2, 3] : Fin 4 → Fin S4x16x181x360.rank)

variable [Facts₀]

class Facts : Prop extends Facts₀ where

variable [Facts]
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.HeatSpec.lean ====
/-
  The heat map of a bundle of trajectories, as one function of the three argument arrays.

  For a batch entry and a time step, every one of 32 objects sits at a latitude and a longitude; on a grid of 181
  latitudes by 360 longitudes it contributes a Gaussian bump of the two coordinate differences, the bumps are summed
  over the objects, and the sum is divided by its largest value over the grid plus a small constant.

  The bump can be written in two ways: as a product of two exponentials, one per coordinate (`sepTerm`), or as one
  exponential of the scaled sum of squares (`jointTerm`). For real coordinate differences they are the same number:
  the exponential of a sum is the product of the exponentials, and the scale distributes over the sum of squares.
  On the extended reals neither law holds at the infinities, so the equality is stated for real differences only.

  The largest value over the grid is the supremum of a finite family; a fold of `max` from the least element over any
  finite set that runs through the same values is that supremum (`fold_max_eq_peak`).
-/
import Idealize.ShloMosaic.PureOps.Ideal
import Idealize.ShloMosaic.PureOps.Ideal.Laws
import Idealize.ShloMosaic.Lib.ValueIdx
import proofs.«111222_j22265110462774_2_alg».proof.Proof.LibReal

noncomputable section

namespace Cert.HeatSpec

open Idealize.ShloMosaic Idealize.ShloMosaic.ValueIdx Cert.LibReal

/-- Minus one half, as the kernel and the reference both spell it. -/
abbrev negHalf : EReal := Ideal.ofBits .f32 0xBF000000#32
/-- The reciprocal of the squared width, as both programs spell it. -/
abbrev invWidth : EReal := Ideal.ofBits .f32 0x3E23D70A#32
/-- The small constant added to the largest value. -/
abbrev tiny : EReal := Ideal.ofBits .f32 0x322BCC77#32

/-- A 32-bit pattern whose exponent field is not all ones denotes a real number. -/
theorem isR_ofBits_f32 (b : BitVec 32) (h : (b.extractLsb' 23 8).toNat ≠ 2 ^ 8 - 1) : IsR (Ideal.ofBits .f32 b) := by
  unfold Ideal.ofBits Ideal.ieee
  simp only []
  rw [if_neg h]
  split
  · exact ⟨_, rfl⟩
  · exact ⟨_, rfl⟩

theorem isR_negHalf : IsR negHalf := isR_ofBits_f32 _ (by decide)
theorem isR_invWidth : IsR invWidth := isR_ofBits_f32 _ (by decide)

/-- One object's bump, one exponential per coordinate. -/
def sepTerm (a b : EReal) : EReal :=
  Ideal.exp (((negHalf * a) * a) * invWidth) * Ideal.exp (((negHalf * b) * b) * invWidth)

/-- One object's bump, one exponential of the scaled sum of squares. -/
def jointTerm (a b : EReal) : EReal :=
  Ideal.exp (negHalf * ((a * a + b * b) * invWidth))

/-- For real coordinate differences the two spellings of the bump agree. -/
theorem sepTerm_eq_jointTerm {a b : EReal} (ha : IsR a) (hb : IsR b) : sepTerm a b = jointTerm a b := by
  obtain ⟨x, rfl⟩ := ha
  obtain ⟨y, rfl⟩ := hb
  obtain ⟨k, hk⟩ := isR_negHalf
  obtain ⟨c, hc⟩ := isR_invWidth
  unfold sepTerm jointTerm
  rw [hk, hc]
  simp only [← EReal.coe_mul, ← EReal.coe_add, Ideal.exp_coe]
  rw [← Real.exp_add]
  congr 2
  ring

/-- The sum of the bumps over the 32 objects, from the objects' two coordinates `tr t o ·`, the grid's latitudes `la`
    and its longitudes `lo`. -/
def field (term : EReal → EReal → EReal) (tr : Fin 16 → Fin 32 → Fin 2 → EReal) (la : Fin 181 → EReal) (lo : Fin 360 → EReal)
    (t : Fin 16) (h : Fin 181) (w : Fin 360) : EReal :=
  ∑ o : Fin 32, term (la h - tr t o 0) (lo w - tr t o 1)

/-- With real coordinates everywhere the two spellings give the same field. -/
theorem field_sep_eq_joint (tr : Fin 16 → Fin 32 → Fin 2 → EReal) (la : Fin 181 → EReal) (lo : Fin 360 → EReal)
    (htr : ∀ t o c, IsR (tr t o c)) (hla : ∀ h, IsR (la h)) (hlo : ∀ w, IsR (lo w)) :
    field sepTerm tr la lo = field jointTerm tr la lo := by
  funext t h w
  exact Finset.sum_congr rfl fun o _ => sepTerm_eq_jointTerm ((hla h).sub (htr t o 0)) ((hlo w).sub (htr t o 1))

/-- The largest value of a field over the grid. -/
def peak (H : Fin 181 → Fin 360 → EReal) : EReal := Finset.univ.sup fun p : Fin 181 × Fin 360 => H p.1 p.2

/-- A fold of `max` from the least element over a finite set whose values are exactly the grid's values is the
    largest value over the grid. -/
theorem fold_max_eq_peak {ι : Type} (S : Finset ι) (f : ι → EReal) (init : EReal) (hinit : init = ⊥)
    (H : Fin 181 → Fin 360 → EReal) (proj : ι → Fin 181 × Fin 360)
    (hf : ∀ i ∈ S, f i = H (proj i).1 (proj i).2) (hsurj : ∀ p : Fin 181 × Fin 360, ∃ i ∈ S, proj i = p) :
    S.fold max init f = peak H := by
  subst hinit
  show S.sup f = peak H
  unfold peak
  refine le_antisymm (Finset.sup_le fun i hi => ?_) (Finset.sup_le fun p _ => ?_)
  · rw [hf i hi]
    exact Finset.le_sup (f := fun p : Fin 181 × Fin 360 => H p.1 p.2) (Finset.mem_univ (proj i))
  · obtain ⟨i, hi, rfl⟩ := hsurj p
    rw [← hf i hi]
    exact Finset.le_sup hi

/-- The field divided by its largest value over the grid plus the small constant. -/
def normalized (H : Fin 16 → Fin 181 → Fin 360 → EReal) (t : Fin 16) (h : Fin 181) (w : Fin 360) : EReal :=
  Ideal.div (H t h w) (peak (H t) + tiny)

/-- The result array: at `(b, t, h, w)` the normalized field of batch entry `b`. -/
def result (term : EReal → EReal → EReal) (traj : (⟨4, ![4, 16, 32, 2]⟩ : Shape).Idx → EReal)
    (lat : (⟨1, ![181]⟩ : Shape).Idx → EReal) (lon : (⟨1, ![360]⟩ : Shape).Idx → EReal) :
    (⟨4, ![4, 16, 181, 360]⟩ : Shape).Idx → EReal := fun i =>
  normalized (field term (fun t o c => traj (ix4 (i 0) t o c)) (fun h => lat (ix1 h)) (fun w => lon (ix1 w))) (i 1) (i 2) (i 3)

/-- With real inputs the two spellings of the bump give the same result array. -/
theorem result_sep_eq_joint (traj : (⟨4, ![4, 16, 32, 2]⟩ : Shape).Idx → EReal)
    (lat : (⟨1, ![181]⟩ : Shape).Idx → EReal) (lon : (⟨1, ![360]⟩ : Shape).Idx → EReal)
    (htraj : ∀ i, IsR (traj i)) (hlat : ∀ i, IsR (lat i)) (hlon : ∀ i, IsR (lon i)) :
    result sepTerm traj lat lon = result jointTerm traj lat lon := by
  funext i
  unfold result
  rw [field_sep_eq_joint _ _ _ (fun _ _ _ => htraj _) (fun _ => hlat _) (fun _ => hlon _)]

end Cert.HeatSpec

end
-- ==== Proof.LibKeepdims3.lean ====
/-
  Rank-3 layout operations read at coordinates, generic in the extents: the casts that insert or remove a
  unit axis, and the broadcasts that repeat an array along the axes where it has extent one. Each is the operation's
  general index lemma with both indices written by coordinates: a cast keeps the row-major position, a broadcast reads
  coordinate zero on an axis of extent one and the same coordinate elsewhere.
-/
import Idealize.ShloMosaic.Lib.Pipeline.Value
import Idealize.ShloMosaic.Lib.ValueIdx
import Idealize.ShloMosaic.Lib.ValueLayout

noncomputable section

namespace Cert.LibKeepdims3

open Idealize.ShloMosaic Idealize.ShloMosaic.ValueIdx

variable {α : Type}

/-- An `[a, b, 1]` array with its trailing unit axis removed reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_two, Shape.rowMajor_val_three]
    show (i.val * b + j.val) * 1 + 0 = i.val * b + j.val
    omega)

/-- An `[a, b]` array given a middle unit axis, `[a, 1, b]`, reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array given two trailing unit axes, `[a, 1, 1]`, reads, at `(i, u, v)`, the operand at `i`. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    rw [hu, hv]; omega)

/-- A `[1, b, 1]` array broadcast to `[a, b, c]` reads, at `(i, j, k)`, the operand at `(0, j, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (i : Fin a) (j : Fin b) (k : Fin c) :
    broadcastTo ⟨3, ![a, b, c]⟩ v h (ix3 i j k) = v (ix3 (0 : Fin 1) j (0 : Fin 1)) := by
  refine broadcastTo_apply v h (ix3 i j k) (ix3 (0 : Fin 1) j (0 : Fin 1)) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- An `[a, 1, 1]` array broadcast to `[a, b, c]` reads, at `(i, j, k)`, the operand at `(i, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show (0 : ℕ) = if (1 : ℕ) = 1 then 0 else k.val
    rw [if_pos rfl]

/-- The last-axis slice of width one at offset `o` of an `[a, b, n]` array reads, at `(i, j, u)`, the operand at
    `(i, j, o)`. -/
theorem slice3_last_apply {a b n : ℕ} (o : ℕ) (ho : o < n) (x : (⟨3, ![a, b, n]⟩ : Shape).Idx → α)
    (h : (⟨3, ![a, b, n]⟩ : Shape).Slices ![0, 0, o] ⟨3, ![a, b, 1]⟩) (i : Fin a) (j : Fin b) (u : Fin 1) :
    extractStridedSlice ⟨3, ![a, b, 1]⟩ ![0, 0, o] x h (ix3 i j u) = x (ix3 i j (⟨o, ho⟩ : Fin n)) := by
  refine extractStridedSlice_apply ![0, 0, o] x h (ix3 i j u) (ix3 i j (⟨o, ho⟩ : Fin n)) fun ax => ?_
  match ax with
  | ⟨0, _⟩ => show i.val = 0 + i.val; omega
  | ⟨1, _⟩ => show j.val = 0 + j.val; omega
  | ⟨2, _⟩ => show o = o + u.val; omega

end Cert.LibKeepdims3

end
-- ==== Proof.LibRank3.lean ====
/-
  Three layout operations of rank 3 read at coordinates, generic in the extents: what a "keepdims" difference
  `x[:, :, None] - w[None, :, :]` is made of.

    * an `[a, b]` array given a trailing unit axis, `[a, b, 1]`, keeps its entries: `(i, j, 0) ↦ (i, j)`;
    * an `[a, b, 1]` array broadcast along its last axis to `[a, b, c]` forgets the last coordinate;
    * a `[1, b, c]` array broadcast along its first axis to `[a, b, c]` forgets the first coordinate.

  Each is the general index lemma of the operation with both indices written by coordinates; an extent that happens
  to be 1 is its own unit axis, and the coordinate there is 0 either way.
-/
import Idealize.ShloMosaic.Lib.Pipeline.Value
import Idealize.ShloMosaic.Lib.ValueIdx

noncomputable section

namespace Cert.LibRank3

open Idealize.ShloMosaic Idealize.ShloMosaic.ValueIdx

variable {α : Type}

/-- An `[a, b]` array cast to `[a, b, 1]` reads, at `(i, j, u)`, the operand at `(i, j)`, whatever the unit coordinate `u`:
    the two indices have the same row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibRank3

end
-- ==== Proof.HeatBody.lean ====
/-
  The kernel body's value at a coordinate. For one batch entry the body holds three blocks: the objects' coordinates
  `P0` (`[1, 16, 32, 2]`: time step, object, latitude or longitude), the grid's latitudes `P1` as a column `[181, 1]` and its
  longitudes `P2` as a row `[1, 360]`. It lays the objects' latitudes along the last axis and the grid's along the middle
  one, subtracts, and takes the exponential of minus one half the squared difference times the inverse squared width
  (`latBump`, `[16, 181, 32]`); likewise for the longitudes (`lonBump`, `[16, 32, 360]`); multiplies the two as matrices, one
  product per time step, which at `(t, h, w)` is the sum over the objects of the product of the two exponentials
  (`heat_apply`); and divides each time step's slice by its largest entry plus a small constant (`scaled_apply`; the
  largest entry is a fold of `max` over the slice's indices, `peak_apply`). Read at `(t, h, w)` this is the normalized
  field of the specification with the bump in its product form (`pay_apply`).
-/
import proofs.«111222_j22265110462774_2_alg».proof.Proof.Gen.KernelIdeal.Skeleton
import proofs.«111222_j22265110462774_2_alg».proof.Proof.HeatSpec
import proofs.«111222_j22265110462774_2_alg».proof.Proof.LibKeepdims3
import proofs.«111222_j22265110462774_2_alg».proof.Proof.LibRank3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeatBody

open Cert.KernelIdeal Cert.KernelIdeal.Gen Idealize.ShloMosaic Idealize.ShloMosaic.ValueIdx
open Cert.HeatSpec Cert.LibKeepdims3 Cert.LibRank3

/-- The batched product at `(t, h, w)`: the sum over the 32 objects. -/
theorem heat_apply (A : FVec Ideal S16x181x32 .f32) (B : FVec Ideal S16x32x360 .f32) (t : Fin 16) (h : Fin 181) (w : Fin 360) :
    matmul dot_S16x181x32_S16x32x360_S16x181x360_2_1_1_2_0_0 none A B (constant S16x181x360 .f32 0x00000000#32) (ix3 t h w)
      = ∑ o : Fin 32, A (ix3 t h o) * B (ix3 t o w) := by
  simp only [matmul]
  rw [Ideal.matmul_constant_zero_apply]
  rw [← Equiv.sum_comp (contrEquiv1 dot_S16x181x32_S16x32x360_S16x181x360_2_1_1_2_0_0 32 rfl rfl).symm]
  refine Finset.sum_congr rfl fun o _ => ?_
  have hl : dot_S16x181x32_S16x32x360_S16x181x360_2_1_1_2_0_0.lhsIdx (ix3 t h w)
      ((contrEquiv1 dot_S16x181x32_S16x32x360_S16x181x360_2_1_1_2_0_0 32 rfl rfl).symm o) = ix3 t h o :=
    funext fun a => Fin.ext (by
      match a with
      | ⟨0, _⟩ => rfl
      | ⟨1, _⟩ => rfl
      | ⟨2, _⟩ =>
        exact (DotDims.lhsIdx_val_of_single (d := dot_S16x181x32_S16x32x360_S16x181x360_2_1_1_2_0_0) (cl := ⟨2, by decide⟩) rfl _ _).trans
          (contrEquiv1_symm_val dot_S16x181x32_S16x32x360_S16x181x360_2_1_1_2_0_0 32 rfl rfl o))
  have hr : dot_S16x181x32_S16x32x360_S16x181x360_2_1_1_2_0_0.rhsIdx (ix3 t h w)
      ((contrEquiv1 dot_S16x181x32_S16x32x360_S16x181x360_2_1_1_2_0_0 32 rfl rfl).symm o) = ix3 t o w :=
    funext fun a => Fin.ext (by
      match a with
      | ⟨0, _⟩ => rfl
      | ⟨1, _⟩ =>
        exact (DotDims.rhsIdx_val_of_single (d := dot_S16x181x32_S16x32x360_S16x181x360_2_1_1_2_0_0) (cr := ⟨1, by decide⟩) rfl _ _).trans
          (contrEquiv1_symm_val dot_S16x181x32_S16x32x360_S16x181x360_2_1_1_2_0_0 32 rfl rfl o)
      | ⟨2, _⟩ => rfl)
  rw [hl, hr]

/-- The largest value of slice `t` over the grid. -/
theorem peak_apply (H : FVec Ideal S16x181x360 .f32) (hr : S16x181x360.Reduces [1, 2] S16) (hφ : FKind.Formats .f32)
    (hacc : (0xFF800000#32 : BitVec 32) = FKind.maximumf.neutral .f32 hφ) (t : Fin 16) :
    multiReduction .maximumf [1, 2] S16 H 0xFF800000#32 hr hφ hacc (ix1 t) = peak (fun h w => H (ix3 t h w)) := by
  rw [multiReduction_maximumf_eq_fold]
  have hdrop : ∀ i : S16x181x360.Idx, hr.drop i = ix1 (i 0) := fun i => funext fun b => Fin.ext (by
    match b with
    | ⟨0, _⟩ => exact hr.drop_apply_val_of_eq i ⟨0, by decide⟩ ⟨0, by decide⟩)
  refine fold_max_eq_peak _ H _ (by simp [Ideal.ofBits, Ideal.ieee]) (fun h w => H (ix3 t h w)) (fun i => (i 1, i 2)) ?_ ?_
  · intro i hi
    have h0 : i 0 = t := by
      have := (Finset.mem_filter.mp hi).2
      rw [hdrop] at this
      exact congrFun this ⟨0, by decide⟩
    show H i = H (ix3 t (i 1) (i 2))
    rw [← h0]
    exact congrArg H (eq_ix3 i)
  · intro p
    refine ⟨ix3 t p.1 p.2, Finset.mem_filter.mpr ⟨Finset.mem_univ _, ?_⟩, rfl⟩
    rw [hdrop]
    rfl

/-! ### The two exponential factors -/

/-- The objects' latitudes, laid along the last axis: `[16, 1, 32]`. -/
def objLat (P0 : Vec Ideal S1x16x32x2 .f32) : FVec Ideal S16x1x32 .f32 :=
  shapeCast S16x1x32 (shapeCast S16x32 (extractStridedSlice S16x32x1 ![0, 0, 0] (shapeCast S16x32x2 P0 shapeCasts_S1x16x32x2_S16x32x2)
    slices_S16x32x2_o0_0_0_S16x32x1) shapeCasts_S16x32x1_S16x32) shapeCasts_S16x32_S16x1x32

theorem objLat_apply (P0 : Vec Ideal S1x16x32x2 .f32) (t : Fin 16) (u : Fin 1) (o : Fin 32) :
    objLat P0 (ix3 t u o) = P0 (ix4 (0 : Fin 1) t o (0 : Fin 2)) := by
  unfold objLat
  rw [shapeCast_ab_a1b_apply, shapeCast_ab1_ab_apply, slice3_last_apply 0 (by decide), shapeCast_1abc_abc_apply]
  rfl

/-- The objects' longitudes, as a trailing column: `[16, 32, 1]`. -/
def objLon (P0 : Vec Ideal S1x16x32x2 .f32) : FVec Ideal S16x32x1 .f32 :=
  shapeCast S16x32x1 (shapeCast S16x32 (extractStridedSlice S16x32x1 ![0, 0, 1] (shapeCast S16x32x2 P0 shapeCasts_S1x16x32x2_S16x32x2)
    slices_S16x32x2_o0_0_1_S16x32x1) shapeCasts_S16x32x1_S16x32) shapeCasts_S16x32_S16x32x1

theorem objLon_apply (P0 : Vec Ideal S1x16x32x2 .f32) (t : Fin 16) (o : Fin 32) (u : Fin 1) :
    objLon P0 (ix3 t o u) = P0 (ix4 (0 : Fin 1) t o (1 : Fin 2)) := by
  unfold objLon
  rw [shapeCast_ab_ab1_apply, shapeCast_ab1_ab_apply, slice3_last_apply 1 (by decide), shapeCast_1abc_abc_apply]
  rfl

/-- The grid's latitudes with a leading unit axis: `[1, 181, 1]`. -/
def gridLat (P1 : Vec Ideal S181x1 .f32) : FVec Ideal S1x181x1 .f32 :=
  shapeCast S1x181x1 (shapeCast S181x1 P1 shapeCasts_S181x1_S181x1) shapeCasts_S181x1_S1x181x1

theorem gridLat_apply (P1 : Vec Ideal S181x1 .f32) (u : Fin 1) (h : Fin 181) (v : Fin 1) :
    gridLat P1 (ix3 u h v) = P1 (ix2 h v) := by
  unfold gridLat
  rw [shapeCast_ab_1ab_apply, shapeCast_self]

/-- The grid's longitudes with a leading unit axis: `[1, 1, 360]`. -/
def gridLon (P2 : Vec Ideal S1x360 .f32) : FVec Ideal S1x1x360 .f32 :=
  shapeCast S1x1x360 (shapeCast S1x360 P2 shapeCasts_S1x360_S1x360) shapeCasts_S1x360_S1x1x360

theorem gridLon_apply (P2 : Vec Ideal S1x360 .f32) (u v : Fin 1) (w : Fin 360) :
    gridLon P2 (ix3 u v w) = P2 (ix2 v w) := by
  unfold gridLon
  rw [shapeCast_ab_1ab_apply, shapeCast_self]

/-- The exponential of minus one half the squared difference `D` times the inverse squared width, entry by entry. -/
def bump {s : Shape} (D : FVec Ideal s .f32) : FVec Ideal s .f32 :=
  exp (mulf (mulf (mulf (broadcast s (Scalar.ofBits .f32 0xBF000000#32)) D) D) (broadcast s (Scalar.ofBits .f32 0x3E23D70A#32)))

theorem bump_apply {s : Shape} (D : FVec Ideal s .f32) (i : s.Idx) :
    bump D i = Ideal.exp (((negHalf * D i) * D i) * invWidth) := rfl

/-- The latitude factor, `[16, 181, 32]`. -/
def latBump (P0 : Vec Ideal S1x16x32x2 .f32) (P1 : Vec Ideal S181x1 .f32) : FVec Ideal S16x181x32 .f32 :=
  bump (subf (broadcastTo S16x181x32 (gridLat P1) broadcasts_S1x181x1_S16x181x32) (broadcastTo S16x181x32 (objLat P0) broadcasts_S16x1x32_S16x181x32))

theorem latBump_apply (P0 : Vec Ideal S1x16x32x2 .f32) (P1 : Vec Ideal S181x1 .f32) (t : Fin 16) (h : Fin 181) (o : Fin 32) :
    latBump P0 P1 (ix3 t h o)
      = Ideal.exp (((negHalf * (P1 (ix2 h (0 : Fin 1)) - P0 (ix4 (0 : Fin 1) t o (0 : Fin 2)))) * (P1 (ix2 h (0 : Fin 1)) - P0 (ix4 (0 : Fin 1) t o (0 : Fin 2)))) * invWidth) := by
  unfold latBump
  rw [bump_apply, subf_apply, broadcastTo_1b1_abc_apply, broadcastTo_a1c_abc_apply, gridLat_apply, objLat_apply]

/-- The longitude factor, `[16, 32, 360]`. -/
def lonBump (P0 : Vec Ideal S1x16x32x2 .f32) (P2 : Vec Ideal S1x360 .f32) : FVec Ideal S16x32x360 .f32 :=
  bump (subf (broadcastTo S16x32x360 (gridLon P2) broadcasts_S1x1x360_S16x32x360) (broadcastTo S16x32x360 (objLon P0) broadcasts_S16x32x1_S16x32x360))

theorem lonBump_apply (P0 : Vec Ideal S1x16x32x2 .f32) (P2 : Vec Ideal S1x360 .f32) (t : Fin 16) (o : Fin 32) (w : Fin 360) :
    lonBump P0 P2 (ix3 t o w)
      = Ideal.exp (((negHalf * (P2 (ix2 (0 : Fin 1) w) - P0 (ix4 (0 : Fin 1) t o (1 : Fin 2)))) * (P2 (ix2 (0 : Fin 1) w) - P0 (ix4 (0 : Fin 1) t o (1 : Fin 2)))) * invWidth) := by
  unfold lonBump
  rw [bump_apply, subf_apply, broadcastTo_11c_abc_apply, broadcastTo_ab1_abc_apply, gridLon_apply, objLon_apply]

/-! ### Dividing by the largest entry -/

/-- Each time step's slice divided by its largest entry plus the small constant. -/
def scaled (H : FVec Ideal S16x181x360 .f32) : FVec Ideal S16x181x360 .f32 :=
  divf H (broadcastTo S16x181x360 (addf (shapeCast S16x1x1 (multiReduction .maximumf [1, 2] S16 H 0xFF800000#32 reduces_S16x181x360_S16 (.inl rfl) rfl)
    shapeCasts_S16_S16x1x1) (broadcast S16x1x1 (Scalar.ofBits .f32 0x322BCC77#32))) broadcasts_S16x1x1_S16x181x360)

theorem scaled_apply (H : FVec Ideal S16x181x360 .f32) (t : Fin 16) (h : Fin 181) (w : Fin 360) :
    scaled H (ix3 t h w) = Ideal.div (H (ix3 t h w)) (peak (fun h w => H (ix3 t h w)) + tiny) := by
  unfold scaled
  rw [divf_apply, broadcastTo_a11_abc_apply, addf_apply, shapeCast_a_a11_apply]
  exact congrArg (fun z => Ideal.div (H (ix3 t h w)) (z + tiny)) (peak_apply H _ _ _ t)

/-! ### The body's result -/

/-- The body's result is the scaled product of the two factors. -/
theorem pay_eq (P0 : Vec Ideal S1x16x32x2 .f32) (P1 : Vec Ideal S181x1 .f32) (P2 : Vec Ideal S1x360 .f32) :
    k0_pay2 P0 P1 P2 = scaled (matmul dot_S16x181x32_S16x32x360_S16x181x360_2_1_1_2_0_0 none (latBump P0 P1) (lonBump P0 P2)
      (constant S16x181x360 .f32 0x00000000#32)) := rfl

/-- The product of the two factors at `(t, h, w)` is the field of the block's coordinates, the bump in its product form. -/
theorem product_apply (P0 : Vec Ideal S1x16x32x2 .f32) (P1 : Vec Ideal S181x1 .f32) (P2 : Vec Ideal S1x360 .f32)
    (t : Fin 16) (h : Fin 181) (w : Fin 360) :
    matmul dot_S16x181x32_S16x32x360_S16x181x360_2_1_1_2_0_0 none (latBump P0 P1) (lonBump P0 P2)
        (constant S16x181x360 .f32 0x00000000#32) (ix3 t h w)
      = field sepTerm (fun t o c => P0 (ix4 (0 : Fin 1) t o c)) (fun h => P1 (ix2 h (0 : Fin 1))) (fun w => P2 (ix2 (0 : Fin 1) w)) t h w := by
  rw [heat_apply]
  unfold field sepTerm
  refine Finset.sum_congr rfl fun o _ => ?_
  rw [latBump_apply, lonBump_apply]

/-- The body's result at `(t, h, w)`: the normalized field of the block's coordinates. -/
theorem pay_apply (P0 : Vec Ideal S1x16x32x2 .f32) (P1 : Vec Ideal S181x1 .f32) (P2 : Vec Ideal S1x360 .f32)
    (t : Fin 16) (h : Fin 181) (w : Fin 360) :
    k0_pay2 P0 P1 P2 (ix3 t h w)
      = normalized (field sepTerm (fun t o c => P0 (ix4 (0 : Fin 1) t o c)) (fun h => P1 (ix2 h (0 : Fin 1))) (fun w => P2 (ix2 (0 : Fin 1) w))) t h w := by
  rw [pay_eq, scaled_apply]
  unfold normalized
  rw [product_apply]
  congr 3
  funext h' w'
  exact product_apply P0 P1 P2 t h' w'

end Cert.KernelIdeal.HeatBody

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.HeatArray.lean ====
/-
  From blocks to the array. The grid has four points, one per batch entry. At point `t` the body is handed batch entry `t` of
  the objects' coordinates, the whole column of latitudes and the whole row of longitudes (the two host reshapes that
  precede the region turn the rank-one arguments into that column and that row), and what it leaves is written back as
  block `t` of the result: the `[1, 16, 181, 360]` slab at batch coordinate `t`. So what point `t` writes back is the
  result array of the specification read through block `t` (`flushed_eq`); the four slabs cover the result array, each index
  lying in the slab of its batch coordinate (`cover`); hence the array ends holding the specification's result (`final`), and
  the kernel's run is stated with that array (`run`).
-/
import proofs.«111222_j22265110462774_2_alg».proof.Proof.Gen.KernelIdeal.Value
import proofs.«111222_j22265110462774_2_alg».proof.Proof.HeatBody
import proofs.«111222_j22265110462774_2_alg».proof.Proof.LibColumn
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HeatArray

open Cert.KernelIdeal Cert.KernelIdeal.Gen Cert.KernelIdeal.HeatBody Cert.HeatSpec

variable (m : (ℓ : Loc nD τ sig) → Buf (Elt Ideal) ℓ) (ρ : Dev nD → PrngReg)

/-- The result array as a function of the argument arrays as launched: the normalized field with the bump in its
    product form. -/
abbrev G (c : Dev nD) : Buf (Elt Ideal) ((c : Thread nD τ).loc main_v2) :=
  result sepTerm (m ((c : Thread nD τ).loc main_arg0)) (m ((c : Thread nD τ).loc main_arg1)) (m ((c : Thread nD τ).loc main_arg2))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Grid point `t` as a batch coordinate. -/
def batchOf (t : Fin cfg0.N) : Fin 4 := ⟨t.val, by have h4 : grid0.N = 4 := N_0; have ht : t.val < grid0.N := t.isLt; omega⟩

/-- A batch coordinate as a grid point. -/
def pointOf (b : Fin 4) : Fin cfg0.N := ⟨b.val, by have h4 : grid0.N = 4 := N_0; show b.val < grid0.N; omega⟩

/-- The block indices at grid point `t`: the objects' block and the result's block are batch entry `t`, the grid's
    latitudes and longitudes are the one block of their arrays. -/
theorem idx_facts : ∀ t : Fin cfg0.N,
    win0_3.index t (0 : Fin 4) = t.val ∧ win0_3.index t (1 : Fin 4) = 0 ∧ win0_3.index t (2 : Fin 4) = 0 ∧ win0_3.index t (3 : Fin 4) = 0
    ∧ win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The latitudes' column as the region finds it: the argument reshaped. -/
theorem V_lat (c : Dev nD) : (V m c main_v0 : S181x1.Idx → EReal)
    = shapeCast S181x1 (m ((c : Thread nD τ).loc main_arg1) : S181.Idx → EReal) shapeCasts_S181_S181x1 := by
  dsimp only [Gen.V, Gen.hostOps0]; after_results; rfl

/-- The longitudes' row as the region finds it: the argument reshaped. -/
theorem V_lon (c : Dev nD) : (V m c main_v1 : S1x360.Idx → EReal)
    = shapeCast S1x360 (m ((c : Thread nD τ).loc main_arg2) : S360.Idx → EReal) shapeCasts_S360_S1x360 := by
  dsimp only [Gen.V, Gen.hostOps0]; after_results; rfl

/-- The objects' block at point `t` is batch entry `t` of the argument. -/
theorem traj_block (c : Dev nD) (t : Fin cfg0.N) (tt : Fin 16) (o : Fin 32) (cc : Fin 2) :
    (iblk m c 0 t : Vec Ideal S1x16x32x2 .f32) (ix4 (0 : Fin 1) tt o cc)
      = (m ((c : Thread nD τ).loc main_arg0) : S4x16x32x2.Idx → EReal)
          (ix4 (batchOf t) tt o cc) := by
  obtain ⟨-, -, -, -, e0, e1, e2, e3, -⟩ := idx_facts t
  unfold iblk
  rw [View.read_apply]
  show V m c main_arg0 _ = _
  rw [V_main_arg0]
  congr 1
  funext a
  apply Fin.ext
  match a with
  | ⟨0, _⟩ => show win0_0.index t (0 : Fin 4) * 1 + 1 * 0 = t.val; omega
  | ⟨1, _⟩ => show win0_0.index t (1 : Fin 4) * 16 + 1 * tt.val = tt.val; omega
  | ⟨2, _⟩ => show win0_0.index t (2 : Fin 4) * 32 + 1 * o.val = o.val; omega
  | ⟨3, _⟩ => show win0_0.index t (3 : Fin 4) * 2 + 1 * cc.val = cc.val; omega

/-- The latitudes' block at every point is the whole column. -/
theorem lat_block (c : Dev nD) (t : Fin cfg0.N) (hh : Fin 181) :
    (iblk m c 1 t : Vec Ideal S181x1 .f32) (ix2 hh (0 : Fin 1))
      = (m ((c : Thread nD τ).loc main_arg1) : S181.Idx → EReal) (ix1 hh) := by
  obtain ⟨-, -, -, -, -, -, -, -, e0, e1, -⟩ := idx_facts t
  unfold iblk
  rw [View.read_apply]
  show V m c main_v0 _ = _
  rw [V_lat]
  refine (congrArg _ (?_ : _ = ix2 hh (0 : Fin 1))).trans (Cert.LibColumn.shapeCast_a_a1_apply _ _ hh 0)
  funext a
  apply Fin.ext
  match a with
  | ⟨0, _⟩ => show win0_1.index t (0 : Fin 2) * 181 + 1 * hh.val = hh.val; omega
  | ⟨1, _⟩ => show win0_1.index t (1 : Fin 2) * 1 + 1 * 0 = 0; omega

/-- The longitudes' block at every point is the whole row. -/
theorem lon_block (c : Dev nD) (t : Fin cfg0.N) (ww : Fin 360) :
    (iblk m c 2 t : Vec Ideal S1x360 .f32) (ix2 (0 : Fin 1) ww)
      = (m ((c : Thread nD τ).loc main_arg2) : S360.Idx → EReal) (ix1 ww) := by
  obtain ⟨-, -, -, -, -, -, -, -, -, -, e0, e1⟩ := idx_facts t
  unfold iblk
  rw [View.read_apply]
  show V m c main_v1 _ = _
  rw [V_lon]
  refine (congrArg _ (?_ : _ = ix2 (0 : Fin 1) ww)).trans (shapeCast_a_1a_apply _ _ 0 ww)
  funext a
  apply Fin.ext
  match a with
  | ⟨0, _⟩ => show win0_2.index t (0 : Fin 2) * 1 + 1 * 0 = 0; omega
  | ⟨1, _⟩ => show win0_2.index t (1 : Fin 2) * 360 + 1 * ww.val = ww.val; omega

/-- What the body leaves in a block whose three loads are batch entry `b` of the objects' coordinates and the whole
    latitudes and longitudes is, at the block index `y` over `(tt, hh, ww)`, the result array at `(b, tt, hh, ww)`. -/
theorem block_value (P0 : Vec Ideal S1x16x32x2 .f32) (P1 : Vec Ideal S181x1 .f32) (P2 : Vec Ideal S1x360 .f32)
    (traj : S4x16x32x2.Idx → EReal) (lat : S181.Idx → EReal) (lon : S360.Idx → EReal) (b : Fin 4)
    (h0 : ∀ tt o cc, P0 (ix4 (0 : Fin 1) tt o cc) = traj (ix4 b tt o cc))
    (h1 : ∀ hh, P1 (ix2 hh (0 : Fin 1)) = lat (ix1 hh))
    (h2 : ∀ ww, P2 (ix2 (0 : Fin 1) ww) = lon (ix1 ww))
    (y : S1x16x181x360.Idx) (tt : Fin 16) (hh : Fin 181) (ww : Fin 360)
    (hy1 : (y 1).val = tt.val) (hy2 : (y 2).val = hh.val) (hy3 : (y 3).val = ww.val) :
    Value.E3 P0 P1 P2 y = result sepTerm traj lat lon (ix4 b tt hh ww) := by
  have hy : Value.ix3_0 y = ix3 tt hh ww := funext fun a => Fin.ext (by
    match a with
    | ⟨0, _⟩ => exact hy1
    | ⟨1, _⟩ => exact hy2
    | ⟨2, _⟩ => exact hy3)
  show k0_pay2 P0 P1 P2 (Value.ix3_0 y) = _
  rw [hy, pay_apply]
  show _ = normalized (field sepTerm (fun t o c => traj (ix4 b t o c)) (fun h => lat (ix1 h)) (fun w => lon (ix1 w))) tt hh ww
  have f0 : (fun t o c => P0 (ix4 (0 : Fin 1) t o c)) = fun t o c => traj (ix4 b t o c) :=
    funext fun t => funext fun o => funext fun c => h0 t o c
  have f1 : (fun h => P1 (ix2 h (0 : Fin 1))) = fun h => lat (ix1 h) := funext h1
  have f2 : (fun w => P2 (ix2 (0 : Fin 1) w)) = fun w => lon (ix1 w) := funext h2
  rw [f0, f1, f2]

/-- What point `t` writes back is block `t` of the result array. -/
theorem flushed_eq (c : Dev nD) (t : Fin cfg0.N) :
    (dats m 0 c).flushed 3 t = ((cfg0.win 3).blk t).view.read (Elt Ideal) (G m c) := by
  rw [Value.flushed3]
  funext j
  show out0_3 (iblk m c 0 t) (iblk m c 1 t) (iblk m c 2 t) j = G m c (((cfg0.win 3).blk t).view.emb j)
  unfold out0_3
  simp only [View.ld_unit_zero (S := S1x16x32x2) hz4, View.ld_unit_zero (S := S181x1) hz2, View.ld_unit_zero (S := S1x360) hz2]
  refine (Value.canon3_eq (iblk m c 0 t) (iblk m c 1 t) (iblk m c 2 t) j).trans ?_
  obtain ⟨e0, e1, e2, e3, -⟩ := idx_facts t
  have hemb : ((cfg0.win 3).blk t).view.emb j
      = ix4 (batchOf t) (⟨(j 1).val, (j 1).isLt⟩ : Fin 16) (⟨(j 2).val, (j 2).isLt⟩ : Fin 181) (⟨(j 3).val, (j 3).isLt⟩ : Fin 360) := by
    funext a
    apply Fin.ext
    match a with
    | ⟨0, _⟩ =>
      show win0_3.index t (0 : Fin 4) * 1 + 1 * (j 0).val = t.val
      have : (j 0).val < 1 := (j 0).isLt
      omega
    | ⟨1, _⟩ => show win0_3.index t (1 : Fin 4) * 16 + 1 * (j 1).val = (j 1).val; omega
    | ⟨2, _⟩ => show win0_3.index t (2 : Fin 4) * 181 + 1 * (j 2).val = (j 2).val; omega
    | ⟨3, _⟩ => show win0_3.index t (3 : Fin 4) * 360 + 1 * (j 3).val = (j 3).val; omega
  rw [hemb]
  exact block_value _ _ _ _ _ _ (batchOf t) (traj_block m c t) (lat_block m c t) (lon_block m c t) j _ _ _ rfl rfl rfl

/-- An index of the result array is in point `t`'s block iff each coordinate is in the block's range on its axis. -/
theorem mem_blk (t : Fin cfg0.N) (i : S4x16x181x360.Idx) :
    i ∈ ((cfg0.win 3).blk t).view.set ↔ ∀ a : Fin 4, win0_3.index t a * S1x16x181x360.size a ≤ (i a).val
      ∧ (i a).val < win0_3.index t a * S1x16x181x360.size a + S1x16x181x360.size a := by
  show i ∈ ((View.whole main_v2).slice (win0_3.rect t)).set ↔ _
  rw [View.set_slice_whole, Rect.mem_set_unit]
  exact Iff.rfl

/-- Every index of the result array is in the block of the point that is its batch coordinate. -/
theorem cover (i : S4x16x181x360.Idx) :
    ∃ t : Fin cfg0.N, (cfg0.win 3).flush t = true ∧ i ∈ ((cfg0.win 3).blk t).view.set := by
  have hi1 : (i 1).val < 16 := (i 1).isLt
  have hi2 : (i 2).val < 181 := (i 2).isLt
  have hi3 : (i 3).val < 360 := (i 3).isLt
  refine ⟨pointOf (i 0), flush0_3 _, ?_⟩
  rw [mem_blk]
  obtain ⟨e0, e1, e2, e3, -⟩ := idx_facts (pointOf (i 0))
  have e0' : win0_3.index (pointOf (i 0)) (0 : Fin 4) = (i 0).val := e0
  intro a
  match a with
  | ⟨0, _⟩ =>
    show win0_3.index (pointOf (i 0)) (0 : Fin 4) * 1 ≤ (i 0).val ∧ (i 0).val < win0_3.index (pointOf (i 0)) (0 : Fin 4) * 1 + 1
    omega
  | ⟨1, _⟩ =>
    show win0_3.index (pointOf (i 0)) (1 : Fin 4) * 16 ≤ (i 1).val ∧ (i 1).val < win0_3.index (pointOf (i 0)) (1 : Fin 4) * 16 + 16
    omega
  | ⟨2, _⟩ =>
    show win0_3.index (pointOf (i 0)) (2 : Fin 4) * 181 ≤ (i 2).val ∧ (i 2).val < win0_3.index (pointOf (i 0)) (2 : Fin 4) * 181 + 181
    omega
  | ⟨3, _⟩ =>
    show win0_3.index (pointOf (i 0)) (3 : Fin 4) * 360 ≤ (i 3).val ∧ (i 3).val < win0_3.index (pointOf (i 0)) (3 : Fin 4) * 360 + 360
    omega

/-- The result array after the run. -/
theorem final (c : Dev nD) : (dats m 0 c).arrAt 3 cfg0.N = G m c :=
  (dats m 0 c).arrAt_eq_of_cover 3 (G m c) (fun t _ => flushed_eq m c t) cover

/-- The kernel's run: the result array at the normalized field of the arguments, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.HeatArray

end
-- ==== Proof.HeatRef.lean ====
/-
  The reference's result, read index by index. The reference broadcasts the objects' coordinates and the grid's to rank
  five, `[4, 16, 32, 181, 360]`: batch entry, time step, object, latitude, longitude. At `(b, t, o, h, w)` it forms the two
  squared coordinate differences, adds them, scales the sum by the inverse squared width and by minus one half, and
  takes the exponential: the bump in its one-exponential form (`bump_apply`). It sums over the objects (`field_apply`),
  takes each `(b, t)` slice's largest value over the grid — a fold of `max` from the least element over the slice's
  indices (`peak_apply`) — adds the small constant and divides. That is the result array of the specification with the
  bump in its one-exponential form (`ref_eq`).
-/
import proofs.«111222_j22265110462774_2_alg».proof.Proof.Gen.ReferenceIdeal.Read
import proofs.«111222_j22265110462774_2_alg».proof.Proof.HeatSpec
import Idealize.ShloMosaic.Lib.ValueIdx
import Idealize.ShloMosaic.PureOps.Ideal.Laws
import Idealize.ShloMosaic.PureOps.Reduce

noncomputable section

namespace Cert.ReferenceIdeal.HeatRef

open Cert.ReferenceIdeal Cert.ReferenceIdeal.Gen Cert.ReferenceIdeal.Read Idealize.ShloMosaic Idealize.ShloMosaic.ValueIdx
open Cert.HeatSpec

variable (x0 : (⟨S4x16x32x2, .f32⟩ : BufTy).Contents (Elt Ideal)) (x1 : (⟨S181, .f32⟩ : BufTy).Contents (Elt Ideal))
  (x2 : (⟨S360, .f32⟩ : BufTy).Contents (Elt Ideal))

/-- The exponential at `(b, t, o, h, w)`: the bump of object `o`'s two coordinate differences from grid point `(h, w)`. -/
theorem bump_apply (b : Fin 4) (t : Fin 16) (o : Fin 32) (h : Fin 181) (w : Fin 360) :
    val_main_v23 (F := Ideal) x0 x1 x2 (ix5 b t o h w)
      = jointTerm (x1 (ix1 h) - x0 (ix4 b t o (0 : Fin 2))) (x2 (ix1 w) - x0 (ix4 b t o (1 : Fin 2))) := by
  have hA : idx_main_v6 (idx_main_v7 (idx_main_v16 (ix5 b t o h w))) = ix1 h := funext fun a => by
    match a with
    | ⟨0, _⟩ => rfl
  have hC : idx_main_v11 (idx_main_v12 (idx_main_v17 (ix5 b t o h w))) = ix1 w := funext fun a => by
    match a with
    | ⟨0, _⟩ => rfl
  have hB : idx_main_v0 (idx_main_v1 (idx_main_v2 (idx_main_v8 (idx_main_v16 (ix5 b t o h w))))) = ix4 b t o (0 : Fin 2) :=
    funext fun a => Fin.ext (by
      match a with
      | ⟨0, _⟩ => show ((b.val * 16 + t.val) * 32 + o.val) / 512 = b.val; omega
      | ⟨1, _⟩ => show ((b.val * 16 + t.val) * 32 + o.val) / 32 % 16 = t.val; omega
      | ⟨2, _⟩ => show ((b.val * 16 + t.val) * 32 + o.val) / 1 % 32 = o.val; omega
      | ⟨3, _⟩ => rfl)
  have hD : idx_main_v3 (idx_main_v4 (idx_main_v5 (idx_main_v13 (idx_main_v17 (ix5 b t o h w))))) = ix4 b t o (1 : Fin 2) :=
    funext fun a => Fin.ext (by
      match a with
      | ⟨0, _⟩ => show ((b.val * 16 + t.val) * 32 + o.val) / 512 = b.val; omega
      | ⟨1, _⟩ => show ((b.val * 16 + t.val) * 32 + o.val) / 32 % 16 = t.val; omega
      | ⟨2, _⟩ => show ((b.val * 16 + t.val) * 32 + o.val) / 1 % 32 = o.val; omega
      | ⟨3, _⟩ => rfl)
  rw [val_main_v23_apply, val_main_v22_apply, val_main_v21_apply, val_main_cst_0_apply, val_main_v20_apply, val_main_v19_apply,
    val_main_cst_apply, val_main_v18_apply, val_main_v16_apply, val_main_v17_apply, val_main_v10_apply, val_main_v15_apply,
    val_main_v9_apply, val_main_v14_apply, val_main_v7_apply, val_main_v8_apply, val_main_v12_apply, val_main_v13_apply,
    val_main_v6_apply, val_main_v2_apply, val_main_v11_apply, val_main_v5_apply, val_main_v1_apply, val_main_v4_apply,
    val_main_v0_apply, val_main_v3_apply, hA, hB, hC, hD]
  rfl

/-- The sum over the objects at `(b, t, h, w)`: the field of batch entry `b`. -/
theorem field_apply (b : Fin 4) (t : Fin 16) (h : Fin 181) (w : Fin 360) :
    val_main_v24 (F := Ideal) x0 x1 x2 (ix4 b t h w)
      = field jointTerm (fun t o c => x0 (ix4 b t o c)) (fun h => x1 (ix1 h)) (fun w => x2 (ix1 w)) t h w := by
  rw [val_main_v24_apply, val_main_cst_1_apply]
  show Ideal.ofBits .f32 0x00000000#32 + _ = _
  rw [Ideal.ofBits_zero_f32, zero_add]
  unfold field
  refine Finset.sum_congr rfl fun o _ => ?_
  have hk : idx_main_v24 (ix4 b t h w) o = ix5 b t o h w := funext fun a => by
    match a with
    | ⟨0, _⟩ => rfl
    | ⟨1, _⟩ => rfl
    | ⟨2, _⟩ => rfl
    | ⟨3, _⟩ => rfl
    | ⟨4, _⟩ => rfl
  rw [hk, bump_apply]

/-- The largest value of slice `(b, t)` over the grid. -/
theorem peak_apply (b : Fin 4) (t : Fin 16) :
    val_main_v25 (F := Ideal) x0 x1 x2 (ix2 b t) = peak (fun h w => val_main_v24 (F := Ideal) x0 x1 x2 (ix4 b t h w)) := by
  unfold val_main_v25
  rw [Host.reduce_eq_fold]
  have hdrop : ∀ i : S4x16x181x360.Idx, reducesTo_S4x16x181x360_S4x16_d2_3.drop i = ix2 (i 0) (i 1) := fun i =>
    funext fun a => Fin.ext (by
      match a with
      | ⟨0, _⟩ => exact reducesTo_S4x16x181x360_S4x16_d2_3.drop_apply_val_of_eq i ⟨0, by decide⟩ ⟨0, by decide⟩
      | ⟨1, _⟩ => exact reducesTo_S4x16x181x360_S4x16_d2_3.drop_apply_val_of_eq i ⟨1, by decide⟩ ⟨1, by decide⟩)
  refine fold_max_eq_peak _ _ _ (by rw [val_main_cst_2_apply]; show Ideal.ofBits .f32 0xFF800000#32 = ⊥; simp [Ideal.ofBits, Ideal.ieee])
    (fun h w => val_main_v24 (F := Ideal) x0 x1 x2 (ix4 b t h w)) (fun i => (i 2, i 3)) ?_ ?_
  · intro i hi
    have hd := (Finset.mem_filter.mp hi).2
    rw [hdrop] at hd
    have h0 : i 0 = b := congrFun hd ⟨0, by decide⟩
    have h1 : i 1 = t := congrFun hd ⟨1, by decide⟩
    show val_main_v24 (F := Ideal) x0 x1 x2 i = val_main_v24 (F := Ideal) x0 x1 x2 (ix4 b t (i 2) (i 3))
    rw [← h0, ← h1]
    exact congrArg _ (eq_ix4 i)
  · intro p
    refine ⟨ix4 b t p.1 p.2, Finset.mem_filter.mpr ⟨Finset.mem_univ _, ?_⟩, rfl⟩
    rw [hdrop]
    rfl

/-- The reference's result is the specification's result array with the bump in its one-exponential form. -/
theorem ref_eq : val_main_v30 (F := Ideal) x0 x1 x2 = result jointTerm x0 x1 x2 := by
  funext i
  obtain ⟨b, t, h, w, rfl⟩ : ∃ (b : Fin 4) (t : Fin 16) (h : Fin 181) (w : Fin 360), i = ix4 b t h w :=
    ⟨i 0, i 1, i 2, i 3, eq_ix4 i⟩
  have hi : idx_main_v26 (idx_main_v29 (ix4 b t h w)) = ix2 b t := funext fun a => by
    match a with
    | ⟨0, _⟩ => rfl
    | ⟨1, _⟩ => rfl
  rw [val_main_v30_apply, val_main_v29_apply, val_main_v28_apply, val_main_v27_apply, val_main_cst_3_apply, val_main_v26_apply,
    hi, peak_apply, field_apply]
  have hH : (fun h w => val_main_v24 (F := Ideal) x0 x1 x2 (ix4 b t h w))
      = field jointTerm (fun t o c => x0 (ix4 b t o c)) (fun h => x1 (ix1 h)) (fun w => x2 (ix1 w)) t :=
    funext fun h => funext fun w => field_apply x0 x1 x2 b t h w
  rw [hH]
  rfl

end Cert.ReferenceIdeal.HeatRef

end
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«111222_j22265110462774_2_alg».proof.Proof.LibReal
import proofs.«111222_j22265110462774_2_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.HeatFinite.lean ====
/-
  The precondition read back. It is the conjunction of three tests, one per argument array, each saying that every
  entry's absolute value is below the pattern of plus infinity; when the conjunction is 1, every entry of every
  argument is a real number.
-/
import proofs.«111222_j22265110462774_2_alg».proof.Pre_finite_inputs
import proofs.«111222_j22265110462774_2_alg».proof.Proof.LibFinite
import Idealize.ShloMosaic.Lib.ValueIdx
import Idealize.ShloMosaic.Lib.Affine

noncomputable section

namespace Cert.Pre_finite_inputs.HeatFinite

open Cert.Pre_finite_inputs Idealize.ShloMosaic Cert.LibReal Cert.LibFinite

/-- Under the precondition every entry of the three argument arrays is a real number. -/
theorem isR_of_pre [Facts] (a0 : FVec Ideal S4x16x32x2 .f32) (a1 : FVec Ideal S181 .f32) (a2 : FVec Ideal S360 .f32)
    (h : fn (F := Ideal) a0 a1 a2 = fun _ => 1#1) :
    (∀ i, IsR (a0 i)) ∧ (∀ i, IsR (a1 i)) ∧ (∀ i, IsR (a2 i)) := by
  have h0 := congrFun h ValueIdx.ix0
  dsimp only [fn] at h0
  obtain ⟨h01, e2⟩ := IntOp.andi_eq_one.mp h0
  obtain ⟨e0, e1⟩ := IntOp.andi_eq_one.mp h01
  exact ⟨isR_of_all_finite a0 _ _ _ _ e0, isR_of_all_finite a1 _ _ _ _ e1, isR_of_all_finite a2 _ _ _ _ e2⟩

end Cert.Pre_finite_inputs.HeatFinite

end
-- ==== Proof.lean ====
/-
  A heat map of trajectories: the kernel against its reference, on the extended reals.

  For each of 4 batch entries and 16 time steps, 32 objects sit at a latitude and a longitude. On a grid of 181 latitudes
  by 360 longitudes each object contributes a Gaussian bump of its two coordinate differences from the grid point; the
  bumps are summed over the objects, and each (batch entry, time step) slice of the sum is divided by its largest value
  over the grid plus a small constant.

  The reference forms, at every (batch entry, time step, object, latitude, longitude), the sum of the two squared
  differences, scales it and takes ONE exponential; it then sums over the objects. The kernel uses that the bump
  separates: it takes one exponential per coordinate, a [16, 181, 32] array of latitude factors and a [16, 32, 360] array of
  longitude factors for one batch entry, and multiplies them as matrices, one product per time step; the product at
  (time step, latitude, longitude) is the sum over the objects of the products of the two factors. Both then take the
  slice's largest value, add the same constant and divide.

  The two agree because, for REAL coordinate differences a and b and the two real constants k (minus one half) and c (the
  inverse squared width), exp(((k a) a) c) · exp(((k b) b) c) = exp(k ((a a + b b) c)): the exponential of a sum is the product of the
  exponentials, and the scale distributes over the sum of squares. Neither law survives an infinite entry, so the
  precondition — every entry of the three arguments is finite — is used: it makes every coordinate difference real
  (Proof/HeatFinite.lean reads it back). Everything after the sum over the objects is one function of the sum on both
  sides (Proof/HeatSpec.lean states it: the field, its largest value as a supremum over the grid, the quotient).

  The kernel's side: Proof/HeatBody.lean reads the body's result at a coordinate, Proof/HeatArray.lean carries the four
  per-batch-entry blocks to the whole result array. The reference's side: Proof/HeatRef.lean reads its result index by index.
  The kernel as printed and its idealization are the same text (no rewrite was applied), so that conjunct is trivial.
-/
import proofs.«111222_j22265110462774_2_alg».proof.Defs
import proofs.«111222_j22265110462774_2_alg».proof.Proof.Gen.Kernel
import proofs.«111222_j22265110462774_2_alg».proof.Proof.Gen.Kernel.Skeleton
import proofs.«111222_j22265110462774_2_alg».proof.Proof.Gen.Kernel.Launch
import proofs.«111222_j22265110462774_2_alg».proof.Proof.Gen.Kernel.Points
import proofs.«111222_j22265110462774_2_alg».proof.Proof.Gen.Kernel.Frame
import proofs.«111222_j22265110462774_2_alg».proof.Proof.Gen.KernelIdeal
import proofs.«111222_j22265110462774_2_alg».proof.Proof.Gen.KernelIdeal.Skeleton
import proofs.«111222_j22265110462774_2_alg».proof.Proof.Gen.KernelIdeal.Launch
import proofs.«111222_j22265110462774_2_alg».proof.Proof.Gen.KernelIdeal.Points
import proofs.«111222_j22265110462774_2_alg».proof.Proof.Gen.KernelIdeal.Frame
import proofs.«111222_j22265110462774_2_alg».proof.Proof.Gen.ReferenceIdeal
import proofs.«111222_j22265110462774_2_alg».proof.Proof.Gen.Pre_finite_inputs
import proofs.«111222_j22265110462774_2_alg».proof.Proof.Gen.KernelIdeal.Value
import proofs.«111222_j22265110462774_2_alg».proof.Proof.Gen.ReferenceIdeal.Run
import proofs.«111222_j22265110462774_2_alg».proof.Proof.Gen.ReferenceIdeal.Read
import proofs.«111222_j22265110462774_2_alg».proof.Proof.HeatSpec
import proofs.«111222_j22265110462774_2_alg».proof.Proof.HeatArray
import proofs.«111222_j22265110462774_2_alg».proof.Proof.HeatRef
import proofs.«111222_j22265110462774_2_alg».proof.Proof.HeatFinite
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the idealization. -/
theorem preserves : Cert.preserves_Kernel_KernelIdeal := trivial

/-- From memories that agree on the three arguments, both programs end with the normalized field: the kernel with the
    bump as a product of two exponentials, the reference with it as one exponential, equal since every entry is real. -/
theorem algebraic : Cert.algebraic_KernelIdeal_ReferenceIdeal := by
  intro m ρ m' ρ' hpre hagree
  refine ⟨fun c => Cert.KernelIdeal.HeatArray.G m c, Cert.KernelIdeal.HeatArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.HeatRef.ref_eq, (hagree c).1, (hagree c).2.1, (hagree c).2.2]
  obtain ⟨r0, r1, r2⟩ := Cert.Pre_finite_inputs.HeatFinite.isR_of_pre _ _ _ (hpre c)
  exact (Cert.HeatSpec.result_sep_eq_joint _ _ _ r0 r1 r2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
